-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S128x128 : Shape := ⟨2, ![128, 128]⟩
abbrev S64x64 : Shape := ⟨2, ![64, 64]⟩
abbrev S8192 : Shape := ⟨1, ![8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S64x64 : S_.BroadcastsInDim S64x64 (![] : Fin 0 → Fin S64x64.rank)
  reducesTo_S64x64_S_d0_1 : S64x64.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S64x8192 .f32) (main_arg1 : FVec F S128x128 .f32) (main_arg2 : FVec F S64x64 .f32) (main_arg3 : FVec F S8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S64x8192 : Shape := ⟨2, ![64, 8192]⟩
abbrev S128x128 : Shape := ⟨2, ![128, 128]⟩
abbrev S64x64 : Shape := ⟨2, ![64, 64]⟩
abbrev S8192 : Shape := ⟨1, ![8192]⟩
abbrev S1x8192 : Shape := ⟨2, ![1, 8192]⟩
abbrev S32x8192 : Shape := ⟨2, ![32, 8192]⟩
abbrev S4096x64 : Shape := ⟨2, ![4096, 64]⟩
abbrev S32x128x64 : Shape := ⟨3, ![32, 128, 64]⟩
abbrev S32x64x128 : Shape := ⟨3, ![32, 64, 128]⟩
abbrev S2048x128 : Shape := ⟨2, ![2048, 128]⟩

abbrev nBuf : Space → Nat
  | .hbm => 6
  | .vmem => 7
  | .smem => 0
  | _ => 0

abbrev bufTy : (tb : Table) → Fin (tcTables nBuf tb) → BufTy
  | .hbm, ⟨0, _⟩ => ⟨S64x8192, .f32⟩
  | .hbm, ⟨1, _⟩ => ⟨S128x128, .f32⟩
  | .hbm, ⟨2, _⟩ => ⟨S64x64, .f32⟩
  | .hbm, ⟨3, _⟩ => ⟨S8192, .f32⟩
  | .hbm, ⟨4, _⟩ => ⟨S1x8192, .f32⟩
  | .hbm, ⟨5, _⟩ => ⟨S64x8192, .f32⟩
  | .local _ .vmem, ⟨0, _⟩ => ⟨S32x8192, .f32⟩
  | .local _ .vmem, ⟨1, _⟩ => ⟨S32x8192, .f32⟩
  | .local _ .vmem, ⟨2, _⟩ => ⟨S128x128, .f32⟩
  | .local _ .vmem, ⟨3, _⟩ => ⟨S64x64, .f32⟩
  | .local _ .vmem, ⟨4, _⟩ => ⟨S1x8192, .f32⟩
  | .local _ .vmem, ⟨5, _⟩ => ⟨S32x8192, .f32⟩
  | .local _ .vmem, ⟨6, _⟩ => ⟨S32x8192, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8192_S1x8192 : S8192.ShapeCasts S1x8192
  inb_S32x8192_S32x8192_0_0 : ∀ a, (![0, 0] : Fin 2 → Nat) a + S32x8192.size a ≤ S32x8192.size a
  h_S32x8192 : 0 < S32x8192.numel
  shapeCasts_S32x8192_S4096x64 : S32x8192.ShapeCasts S4096x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S4096x64_S32x128x64 : S4096x64.ShapeCasts S32x128x64
  transposes_S32x128x64_p0_2_1_S32x64x128 : S32x128x64.Transposes [0, 2, 1] S32x64x128
  shapeCasts_S32x64x128_S2048x128 : S32x64x128.ShapeCasts S2048x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S2048x128_S32x64x128 : S2048x128.ShapeCasts S32x64x128
  transposes_S32x64x128_p0_2_1_S32x128x64 : S32x64x128.Transposes [0, 2, 1] S32x128x64
  shapeCasts_S32x128x64_S32x8192 : S32x128x64.ShapeCasts S32x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S32x8192 : S1x8192.Broadcasts S32x8192
  dot_S4096x64_S64x64_S4096x64_1_0_0_1_n_n_wf : DotDims.WF S4096x64 S64x64 S4096x64 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S64x8192.size a
  hwx0_0 : ∀ i : grid0.Coords, EltTy.bits .f32 = 32 ∨ (Rect.block (s := S64x8192) S32x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x8192.size a ≤ S64x8192.size a
  hwx0_4 : ∀ i : grid0.Coords, EltTy.bits .f32 = 32 ∨ (Rect.block (s := S64x8192) S32x8192.size (cc0_transform_4 i) (hinb0_4 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x8192 : Shape := ⟨2, ![64, 8192]⟩
abbrev S128x128 : Shape := ⟨2, ![128, 128]⟩
abbrev S64x64 : Shape := ⟨2, ![64, 64]⟩
abbrev S8192 : Shape := ⟨1, ![8192]⟩
abbrev S128x1x128x1 : Shape := ⟨4, ![128, 1, 128, 1]⟩
abbrev S1x64x1x64 : Shape := ⟨4, ![1, 64, 1, 64]⟩
abbrev S128x64x128x64 : Shape := ⟨4, ![128, 64, 128, 64]⟩
abbrev S8192x8192 : Shape := ⟨2, ![8192, 8192]⟩
abbrev S1x8192 : Shape := ⟨2, ![1, 8192]⟩

abbrev nBuf : Space → Nat
  | .hbm => 15
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S128x128, .f32⟩
  | .hbm, ⟨2, _⟩ => ⟨S64x64, .f32⟩
  | .hbm, ⟨3, _⟩ => ⟨S8192, .f32⟩
  | .hbm, ⟨4, _⟩ => ⟨S128x1x128x1, .f32⟩
  | .hbm, ⟨5, _⟩ => ⟨S1x64x1x64, .f32⟩
  | .hbm, ⟨6, _⟩ => ⟨S128x64x128x64, .f32⟩
  | .hbm, ⟨7, _⟩ => ⟨S128x64x128x64, .f32⟩
  | .hbm, ⟨8, _⟩ => ⟨S128x64x128x64, .f32⟩
  | .hbm, ⟨9, _⟩ => ⟨S8192x8192, .f32⟩
  | .hbm, ⟨10, _⟩ => ⟨S8192x8192, .f32⟩
  | .hbm, ⟨11, _⟩ => ⟨S64x8192, .f32⟩
  | .hbm, ⟨12, _⟩ => ⟨S1x8192, .f32⟩
  | .hbm, ⟨13, _⟩ => ⟨S64x8192, .f32⟩
  | .hbm, ⟨14, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]

class Facts₀ : Prop where
  bcast_S128x128_S128x1x128x1_0_2 : S128x128.BroadcastsInDim S128x1x128x1 (![0, 2] : Fin 2 → Fin S128x1x128x1.rank)
  bcast_S64x64_S1x64x1x64_1_3 : S64x64.BroadcastsInDim S1x64x1x64 (![1, 3] : Fin 2 → Fin S1x64x1x64.rank)
  bcast_S128x1x128x1_S128x64x128x64_0_1_2_3 : S128x1x128x1.BroadcastsInDim S128x64x128x64 (![0, 1, 2, 3] : Fin 4 → Fin S128x64x128x64.rank)
  bcast_S1x64x1x64_S128x64x128x64_0_1_2_3 : S1x64x1x64.BroadcastsInDim S128x64x128x64 (![0, 1, 2, 3] : Fin 4 → Fin S128x64x128x64.rank)
  shapeCasts_S128x64x128x64_S8192x8192 : S128x64x128x64.ShapeCasts S8192x8192
  transposes_S8192x8192_S8192x8192_1_0 : S8192x8192.Transposes [1, 0] S8192x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  dot_S64x8192_S8192x8192_S64x8192_1_0_0_1_n_n_wf : DotDims.WF S64x8192 S8192x8192 S64x8192 [1] [0] [0] [1] [] []

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.LibSumBlocks.lean ====
/-
  A finite sum cut into consecutive blocks.

  An index below `m * n` is `a * n + b` for exactly one block number `a < m` and one offset `b < n`, so a sum over
  `Fin (m * n)` in any commutative additive monoid is the sum, over the blocks, of each block's sum.  No order or
  finiteness of the summands is used: only that addition is associative and commutative, which holds on the extended
  reals too.
-/
import Mathlib.Algebra.BigOperators.Fin
import Mathlib.Logic.Equiv.Fin.Basic

open scoped BigOperators

namespace SumBlocks

/-- Offset `b` of block `a` lies below `m * n`. -/
theorem lt_mul {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- The index `a * n + b` of a range of `N = m * n` indices. -/
def idx {m n N : ℕ} (hN : m * n = N) (a : Fin m) (b : Fin n) : Fin N := ⟨a.val * n + b.val, hN ▸ lt_mul a b⟩

@[simp] theorem idx_val {m n N : ℕ} (hN : m * n = N) (a : Fin m) (b : Fin n) : (idx hN a b).val = a.val * n + b.val := rfl

/-- A sum over `N = m * n` indices is the sum over the `m` blocks of the sum over each block's `n` offsets. -/
theorem sum_eq {β : Type*} [AddCommMonoid β] {m n N : ℕ} (hN : m * n = N) (f : Fin N → β) :
    ∑ k : Fin N, f k = ∑ a : Fin m, ∑ b : Fin n, f (idx hN a b) := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

end SumBlocks
-- ==== Proof.KronSpec.lean ====
/-
  The Kronecker-factored linear map, entry by entry, in its two arrangements.

  A row of 8192 = 128 · 64 entries is read as a 128 × 64 matrix: column `k` is `(k / 64, k % 64)`.  With
  `W = f1 ⊗ f2`, i.e. `W (a·64 + b, c·64 + d) = f1 (a, c) · f2 (b, d)`, entry `o = a·64 + b` of `x · Wᵀ` is

      oneStage :  ∑ k, x k · (f1 (a, k / 64) · f2 (b, k % 64))                    (one contraction of length 8192)
      twoStage :  ∑ c, (∑ d, x (c·64 + d) · f2 (b, d)) · f1 (a, c)                 (contract d, then contract c)

  The two agree when every entry is a real number: cut the long sum into 128 blocks of 64 and pull the factor
  `f1 (a, c)`, constant on a block, out of the block's sum.  Pulling a factor out of a sum is distributivity, which
  fails on the extended reals at infinities; this is the one place where finiteness of the inputs is used.
-/
import Idealize.ShloMosaic.PureOps.Ideal
import Idealize.ShloMosaic.Lib.ValueIdx
import proofs.«157223_j58248346469065_2_alg».proof.Proof.LibSumBlocks

noncomputable section

namespace Kron

open Idealize.ShloMosaic Idealize.ShloMosaic.ValueIdx
open scoped BigOperators

/-- Column `c · 64 + d` of a row of 8192 entries. -/
def col (c : Fin 128) (d : Fin 64) : Fin 8192 := SumBlocks.idx (show 128 * 64 = 8192 by norm_num) c d
/-- The block a column lies in: `k / 64`. -/
def hi (k : Fin 8192) : Fin 128 := ⟨k.val / 64, by have := k.isLt; omega⟩
/-- A column's offset in its block: `k % 64`. -/
def lo (k : Fin 8192) : Fin 64 := ⟨k.val % 64, Nat.mod_lt _ (by norm_num)⟩

@[simp] theorem col_val (c : Fin 128) (d : Fin 64) : (col c d).val = c.val * 64 + d.val := rfl
@[simp] theorem hi_val (k : Fin 8192) : (hi k).val = k.val / 64 := rfl
@[simp] theorem lo_val (k : Fin 8192) : (lo k).val = k.val % 64 := rfl

theorem hi_col (c : Fin 128) (d : Fin 64) : hi (col c d) = c :=
  Fin.ext (by show (c.val * 64 + d.val) / 64 = c.val; have := d.isLt; omega)
theorem lo_col (c : Fin 128) (d : Fin 64) : lo (col c d) = d :=
  Fin.ext (by show (c.val * 64 + d.val) % 64 = d.val; have := d.isLt; omega)
theorem col_hi_lo (k : Fin 8192) : col (hi k) (lo k) = k :=
  Fin.ext (by show k.val / 64 * 64 + k.val % 64 = k.val; omega)

abbrev M128 := (⟨2, ![128, 128]⟩ : Shape).Idx → EReal
abbrev M64 := (⟨2, ![64, 64]⟩ : Shape).Idx → EReal

/-- Entry `o` of `x · (f1 ⊗ f2)ᵀ` as ONE contraction over the 8192 columns. -/
def oneStage (x : Fin 8192 → EReal) (f1 : M128) (f2 : M64) (o : Fin 8192) : EReal :=
  ∑ k : Fin 8192, x k * (f1 (ix2 (hi o) (hi k)) * f2 (ix2 (lo o) (lo k)))

/-- The same entry contracted in two stages: first the 64 offsets of each block against `f2`, then the 128 blocks
    against `f1`. -/
def twoStage (x : Fin 8192 → EReal) (f1 : M128) (f2 : M64) (o : Fin 8192) : EReal :=
  ∑ c : Fin 128, (∑ d : Fin 64, x (col c d) * f2 (ix2 (lo o) d)) * f1 (ix2 (hi o) c)

/-- The coercion of the reals into the extended reals carries a finite sum to the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real entries the two arrangements agree: the long sum is cut into its 128 blocks, and on block `c` the factor
    `f1 (a, c)` does not depend on the offset, so it comes out of the block's sum. -/
theorem oneStage_eq_twoStage (x : Fin 8192 → EReal) (f1 : M128) (f2 : M64) (o : Fin 8192)
    (hx : ∀ k, ∃ r : ℝ, x k = r) (h1 : ∀ j, ∃ r : ℝ, f1 j = r) (h2 : ∀ j, ∃ r : ℝ, f2 j = r) :
    oneStage x f1 f2 o = twoStage x f1 f2 o := by
  choose X hX using hx
  choose P hP using h1
  choose Q hQ using h2
  unfold oneStage twoStage
  rw [SumBlocks.sum_eq (show 128 * 64 = 8192 by norm_num)]
  refine Finset.sum_congr rfl fun c _ => ?_
  have e : ∀ d : Fin 64, x (SumBlocks.idx (show 128 * 64 = 8192 by norm_num) c d)
        * (f1 (ix2 (hi o) (hi (SumBlocks.idx (show 128 * 64 = 8192 by norm_num) c d)))
          * f2 (ix2 (lo o) (lo (SumBlocks.idx (show 128 * 64 = 8192 by norm_num) c d))))
      = ((X (col c d) * Q (ix2 (lo o) d) * P (ix2 (hi o) c) : ℝ) : EReal) := fun d => by
    show x (col c d) * (f1 (ix2 (hi o) (hi (col c d))) * f2 (ix2 (lo o) (lo (col c d)))) = _
    rw [hi_col, lo_col, hX, hP, hQ, ← EReal.coe_mul, ← EReal.coe_mul]
    exact congrArg _ (by ring)
  rw [Finset.sum_congr rfl fun d _ => e d, ← coe_sum, ← Finset.sum_mul, EReal.coe_mul, coe_sum, hP]
  refine congrArg (· * _) (Finset.sum_congr rfl fun d _ => ?_)
  rw [EReal.coe_mul, hX, hQ]

/-! ## The whole result array -/

abbrev A64 := (⟨2, ![64, 8192]⟩ : Shape).Idx → EReal
abbrev V8192 := (⟨1, ![8192]⟩ : Shape).Idx → EReal

/-- `x · (f1 ⊗ f2)ᵀ + bias`, each entry one contraction of length 8192. -/
def outOne (x : A64) (f1 : M128) (f2 : M64) (bias : V8192) : A64 :=
  fun i => oneStage (fun q => x (ix2 (i 0) q)) f1 f2 (i 1) + bias (ix1 (i 1))

/-- The same array, each entry contracted in two stages. -/
def outTwo (x : A64) (f1 : M128) (f2 : M64) (bias : V8192) : A64 :=
  fun i => twoStage (fun q => x (ix2 (i 0) q)) f1 f2 (i 1) + bias (ix1 (i 1))

theorem outTwo_ix2 (x : A64) (f1 : M128) (f2 : M64) (bias : V8192) (n : Fin 64) (o : Fin 8192) :
    outTwo x f1 f2 bias (ix2 n o) = twoStage (fun q => x (ix2 n q)) f1 f2 o + bias (ix1 o) := rfl

theorem outOne_ix2 (x : A64) (f1 : M128) (f2 : M64) (bias : V8192) (n : Fin 64) (o : Fin 8192) :
    outOne x f1 f2 bias (ix2 n o) = oneStage (fun q => x (ix2 n q)) f1 f2 o + bias (ix1 o) := rfl

/-- On real `x`, `f1`, `f2` the two arrays are one (the bias may be any extended real: it is only added). -/
theorem outOne_eq_outTwo (x : A64) (f1 : M128) (f2 : M64) (bias : V8192)
    (hx : ∀ j, ∃ r : ℝ, x j = r) (h1 : ∀ j, ∃ r : ℝ, f1 j = r) (h2 : ∀ j, ∃ r : ℝ, f2 j = r) :
    outOne x f1 f2 bias = outTwo x f1 f2 bias :=
  funext fun i => congrArg (· + bias (ix1 (i 1))) (oneStage_eq_twoStage _ f1 f2 _ (fun _ => hx _) h1 h2)

end Kron

end
-- ==== Proof.LibMergeLeadingAxes.lean ====
/-
  Merging the two leading axes of a rank-3 array into one, and splitting them again, read at coordinates.

  In row-major order entry `(r, t, k)` of an `[a, b, c]` array sits at position `(r * b + t) * c + k`, which is
  where entry `(r * b + t, k)` of an `[n, c]` array sits. So a reshape of `[a, b, c]` to `[n, c]` reads, at row
  `p = r * b + t` and column `k`, the operand at `(r, t, k)`; and the reshape back reads, at `(r, t, k)`, the operand
  at row `p`, column `k`. Stated for any element type and any extents, with indices written by their coordinates;
  the merged extent `n` is a parameter so that a printed literal (`512` for `8 * 64`) unifies.
-/
import Idealize.ShloMosaic.Lib.Pipeline.Value
import Idealize.ShloMosaic.Lib.ValueIdx

namespace Idealize.ShloMosaic.MergeLeadingAxes

open Idealize.ShloMosaic Idealize.ShloMosaic.ValueIdx

variable {α : Type}

/-- An `[a, b, c]` array reshaped to `[n, c]` reads, at `(p, k)` with `p = r * b + t`, the operand at `(r, t, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin a) (t : Fin b) (k : Fin c) (p : Fin n)
    (hp : p.val = r.val * b + t.val) :
    shapeCast ⟨2, ![n, c]⟩ x h (ix2 p k) = x (ix3 r t k) :=
  shapeCast_apply x h _ _ (by
    rw [Shape.rowMajor_val_three, Shape.rowMajor_val_two]
    show (r.val * b + t.val) * c + k.val = p.val * c + k.val
    rw [hp])

/-- An `[n, c]` array reshaped to `[a, b, c]` reads, at `(r, t, k)`, the operand at `(p, k)` with `p = r * b + t`. -/
theorem shapeCast_nc_abc_apply {a b c n : ℕ} (x : (⟨2, ![n, c]⟩ : Shape).Idx → α)
    (h : (⟨2, ![n, c]⟩ : Shape).ShapeCasts ⟨3, ![a, b, c]⟩) (r : Fin a) (t : Fin b) (k : Fin c) (p : Fin n)
    (hp : p.val = r.val * b + t.val) :
    shapeCast ⟨3, ![a, b, c]⟩ x h (ix3 r t k) = x (ix2 p k) :=
  shapeCast_apply x h _ _ (by
    rw [Shape.rowMajor_val_three, Shape.rowMajor_val_two]
    show p.val * c + k.val = (r.val * b + t.val) * c + k.val
    rw [hp])

end Idealize.ShloMosaic.MergeLeadingAxes
-- ==== Proof.LibTrailingAxes.lean ====
/-
  Splitting the trailing axis of a matrix into two, and merging the two trailing axes of a rank-3 array into one, read
  at coordinates.

  In row-major order entry `(r, q)` of an `[a, n]` array sits at position `r * n + q`.  When `n = b * c` and
  `q = t * c + k` this is `(r * b + t) * c + k`: the position of entry `(r * b + t, k)` of an `[a * b, c]` array and of
  entry `(r, t, k)` of an `[a, b, c]` array.  So the reshape `[a, n] → [m, c]` (with `m = a * b`) reads, at row
  `p = r * b + t` and column `k`, the operand at `(r, t * c + k)`; and the reshape `[a, b, c] → [a, n]` reads, at
  `(r, t * c + k)`, the operand at `(r, t, k)`.  Stated for any element type and any extents; the merged extents are
  parameters so that printed literals (`8192` for `128 * 64`) unify.
-/
import Idealize.ShloMosaic.Lib.Pipeline.Value
import Idealize.ShloMosaic.Lib.ValueIdx

namespace Idealize.ShloMosaic.TrailingAxes

open Idealize.ShloMosaic Idealize.ShloMosaic.ValueIdx

variable {α : Type}

/-- An `[a, n]` array reshaped to `[m, c]`, where `n = b * c`, reads, at `(p, k)` with `p = r * b + t`, the operand at
    `(r, q)` with `q = t * c + k`. -/
theorem shapeCast_an_mc_apply {a n m c : ℕ} (b : ℕ) (x : (⟨2, ![a, n]⟩ : Shape).Idx → α)
    (h : (⟨2, ![a, n]⟩ : Shape).ShapeCasts ⟨2, ![m, c]⟩) (r : Fin a) (q : Fin n) (p : Fin m) (k : Fin c) (t : ℕ)
    (hn : n = b * c) (hp : p.val = r.val * b + t) (hq : q.val = t * c + k.val) :
    shapeCast ⟨2, ![m, c]⟩ x h (ix2 p k) = x (ix2 r q) :=
  shapeCast_apply x h _ _ (by
    rw [Shape.rowMajor_val_two, Shape.rowMajor_val_two]
    show r.val * n + q.val = p.val * c + k.val
    rw [hq, hp, hn]; ring)

/-- An `[a, b, c]` array reshaped to `[a, n]`, where `n = b * c`, reads, at `(r, q)` with `q = t * c + k`, the operand
    at `(r, t, k)`. -/
theorem shapeCast_abc_an_apply {a b c n : ℕ} (x : (⟨3, ![a, b, c]⟩ : Shape).Idx → α)
    (h : (⟨3, ![a, b, c]⟩ : Shape).ShapeCasts ⟨2, ![a, n]⟩) (r : Fin a) (t : Fin b) (k : Fin c) (q : Fin n)
    (hn : n = b * c) (hq : q.val = t.val * c + k.val) :
    shapeCast ⟨2, ![a, n]⟩ x h (ix2 r q) = x (ix3 r t k) :=
  shapeCast_apply x h _ _ (by
    rw [Shape.rowMajor_val_three, Shape.rowMajor_val_two]
    show (r.val * b + t.val) * c + k.val = r.val * n + q.val
    rw [hq, hn]; ring)

end Idealize.ShloMosaic.TrailingAxes
-- ==== Proof.BodyValue.lean ====
/-
  What the kernel body computes, entry by entry, at the ideal instance.

  The body sees a block of 32 rows of `x` and the whole of `f1`, `f2` and the bias row.  It views each row of 8192
  entries as a 128 × 64 matrix (entry `(c, d)` is column `c·64 + d`), contracts the 64 offsets `d` against `f2ᵀ`
  (one product of a [32·128, 64] matrix), moves the block axis `c` last, contracts it against `f1ᵀ` (one product of a
  [32·64, 128] matrix), moves the axes back and adds the bias.  Read at row `n` and column `o = a·64 + b` this is

      ∑ c, (∑ d, x (n, c·64 + d) · f2 (b, d)) · f1 (a, c)  +  bias o :

  each reshape only renames positions (row-major order), each transpose swaps two coordinates, a rounding to bf16 is
  the identity on exact values, and a matrix product into a zero accumulator is the plain sum over the contracted axis.
-/
import proofs.«157223_j58248346469065_2_alg».proof.Proof.Gen.KernelIdeal.Skeleton
import proofs.«157223_j58248346469065_2_alg».proof.Proof.KronSpec
import proofs.«157223_j58248346469065_2_alg».proof.Proof.LibMergeLeadingAxes
import proofs.«157223_j58248346469065_2_alg».proof.Proof.LibTrailingAxes
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-- The dimension numbers of the first product, [4096, 64] · [64, 64]. -/
abbrev D1 : DotDims S4096x64 S64x64 S4096x64 := dot_S4096x64_S64x64_S4096x64_1_0_0_1_n_n
/-- The dimension numbers of the second product, [2048, 128] · [128, 128]. -/
abbrev D2 : DotDims S2048x128 S128x128 S2048x128 := dot_S2048x128_S128x128_S2048x128_1_0_0_1_n_n

theorem lhs1_0 (i : S4096x64.Idx) (q : D1.contr.Idx) : (D1.lhsIdx i q 0).val = (i 0).val := by
  unfold DotDims.lhsIdx
  rw [dif_neg (show ¬(0 : Fin S4096x64.rank) ∈ D1.lhsBatch by decide), dif_pos (show (0 : Fin S4096x64.rank) ∈ D1.lhsNonContracting by decide)]
  rfl
theorem lhs1_1 (i : S4096x64.Idx) (q : D1.contr.Idx) : (D1.lhsIdx i q 1).val = (q ⟨0, by decide⟩).val :=
  D1.lhsIdx_val_of_single rfl i q
theorem rhs1_0 (i : S4096x64.Idx) (q : D1.contr.Idx) : (D1.rhsIdx i q 0).val = (q ⟨0, by decide⟩).val :=
  D1.rhsIdx_val_of_single rfl i q
theorem rhs1_1 (i : S4096x64.Idx) (q : D1.contr.Idx) : (D1.rhsIdx i q 1).val = (i 1).val := by
  unfold DotDims.rhsIdx
  rw [dif_neg (show ¬(1 : Fin S64x64.rank) ∈ D1.rhsBatch by decide), dif_pos (show (1 : Fin S64x64.rank) ∈ D1.rhsNonContracting by decide)]
  rfl

/-- The first product into a zero accumulator, at row `p` and column `b`: the sum over the 64 contracted positions. -/
theorem product1_apply (l : FVec Ideal S4096x64 .bf16) (r : FVec Ideal S64x64 .bf16) (p : Fin 4096) (b : Fin 64) :
    matmul D1 none l r (constant (F := Ideal) S4096x64 .f32 0x00000000#32) (ix2 p b) = ∑ d : Fin 64, l (ix2 p d) * r (ix2 d b) := by
  simp only [matmul]
  rw [Ideal.matmul_constant_zero_apply, ← Equiv.sum_comp (ValueIdx.contrEquiv1 D1 64 rfl rfl).symm]
  refine Finset.sum_congr rfl fun k _ => ?_
  have hk := ValueIdx.contrEquiv1_symm_val D1 64 rfl rfl k
  have el : D1.lhsIdx (ix2 p b) ((ValueIdx.contrEquiv1 D1 64 rfl rfl).symm k) = ix2 p k := funext fun a => Fin.ext (by
    match a with
    | ⟨0, _⟩ => exact lhs1_0 _ _
    | ⟨1, _⟩ => exact (lhs1_1 _ _).trans hk)
  have er : D1.rhsIdx (ix2 p b) ((ValueIdx.contrEquiv1 D1 64 rfl rfl).symm k) = ix2 k b := funext fun a => Fin.ext (by
    match a with
    | ⟨0, _⟩ => exact (rhs1_0 _ _).trans hk
    | ⟨1, _⟩ => exact rhs1_1 _ _)
  rw [el, er]

theorem lhs2_0 (i : S2048x128.Idx) (q : D2.contr.Idx) : (D2.lhsIdx i q 0).val = (i 0).val := by
  unfold DotDims.lhsIdx
  rw [dif_neg (show ¬(0 : Fin S2048x128.rank) ∈ D2.lhsBatch by decide), dif_pos (show (0 : Fin S2048x128.rank) ∈ D2.lhsNonContracting by decide)]
  rfl
theorem lhs2_1 (i : S2048x128.Idx) (q : D2.contr.Idx) : (D2.lhsIdx i q 1).val = (q ⟨0, by decide⟩).val :=
  D2.lhsIdx_val_of_single rfl i q
theorem rhs2_0 (i : S2048x128.Idx) (q : D2.contr.Idx) : (D2.rhsIdx i q 0).val = (q ⟨0, by decide⟩).val :=
  D2.rhsIdx_val_of_single rfl i q
theorem rhs2_1 (i : S2048x128.Idx) (q : D2.contr.Idx) : (D2.rhsIdx i q 1).val = (i 1).val := by
  unfold DotDims.rhsIdx
  rw [dif_neg (show ¬(1 : Fin S128x128.rank) ∈ D2.rhsBatch by decide), dif_pos (show (1 : Fin S128x128.rank) ∈ D2.rhsNonContracting by decide)]
  rfl

/-- The second product into a zero accumulator, at row `p` and column `a`: the sum over the 128 contracted positions. -/
theorem product2_apply (l : FVec Ideal S2048x128 .bf16) (r : FVec Ideal S128x128 .bf16) (p : Fin 2048) (a : Fin 128) :
    matmul D2 none l r (constant (F := Ideal) S2048x128 .f32 0x00000000#32) (ix2 p a) = ∑ c : Fin 128, l (ix2 p c) * r (ix2 c a) := by
  simp only [matmul]
  rw [Ideal.matmul_constant_zero_apply, ← Equiv.sum_comp (ValueIdx.contrEquiv1 D2 128 rfl rfl).symm]
  refine Finset.sum_congr rfl fun k _ => ?_
  have hk := ValueIdx.contrEquiv1_symm_val D2 128 rfl rfl k
  have el : D2.lhsIdx (ix2 p a) ((ValueIdx.contrEquiv1 D2 128 rfl rfl).symm k) = ix2 p k := funext fun a' => Fin.ext (by
    match a' with
    | ⟨0, _⟩ => exact lhs2_0 _ _
    | ⟨1, _⟩ => exact (lhs2_1 _ _).trans hk)
  have er : D2.rhsIdx (ix2 p a) ((ValueIdx.contrEquiv1 D2 128 rfl rfl).symm k) = ix2 k a := funext fun a' => Fin.ext (by
    match a' with
    | ⟨0, _⟩ => exact (rhs2_0 _ _).trans hk
    | ⟨1, _⟩ => exact rhs2_1 _ _)
  rw [el, er]

/-- Row `n · 128 + c` of the [4096, 64] view of a block. -/
def row1 (n : Fin 32) (c : Fin 128) : Fin 4096 := ⟨n.val * 128 + c.val, by have := n.isLt; have := c.isLt; omega⟩
/-- Row `n · 64 + b` of the [2048, 128] view. -/
def row2 (n : Fin 32) (b : Fin 64) : Fin 2048 := ⟨n.val * 64 + b.val, by have := n.isLt; have := b.isLt; omega⟩

/-- The first stage: after the first product, entry `(n·128 + c, b)` is block `c` of row `n` contracted against row `b`
    of `f2`. -/
theorem stage1_apply (x0 : Vec Ideal S32x8192 .f32) (x3 : Vec Ideal S64x64 .f32) (n : Fin 32) (c : Fin 128) (b : Fin 64) :
    matmul D1 none (truncf .bf16 (shapeCast S4096x64 x0 shapeCasts_S32x8192_S4096x64) bitsLt_bf16_f32)
        (transpose S64x64 [1, 0] (truncf .bf16 x3 bitsLt_bf16_f32) transposes_S64x64_p1_0_S64x64)
        (constant (F := Ideal) S4096x64 .f32 0x00000000#32) (ix2 (row1 n c) b)
      = ∑ d : Fin 64, x0 (ix2 n (Kron.col c d)) * x3 (ix2 b d) := by
  rw [product1_apply]
  refine Finset.sum_congr rfl fun d _ => ?_
  rw [truncf_apply, TrailingAxes.shapeCast_an_mc_apply 128 x0 shapeCasts_S32x8192_S4096x64 n (Kron.col c d) (row1 n c) d c.val (by norm_num) rfl rfl,
    transpose_ix2_apply, truncf_apply]

/-- THE BODY'S RESULT at row `n` and column `o`: the two-stage contraction of row `n` of the block, plus the bias. -/
theorem pay_apply (x0 : Vec Ideal S32x8192 .f32) (x3 : Vec Ideal S64x64 .f32) (x11 : Vec Ideal S128x128 .f32) (x18 : Vec Ideal S1x8192 .f32)
    (n : Fin 32) (o : Fin 8192) :
    k0_pay1 x0 x3 x11 x18 (ix2 n o) = Kron.twoStage (fun q => x0 (ix2 n q)) x11 x3 o + x18 (ix2 (0 : Fin 1) o) := by
  unfold k0_pay1
  dsimp only
  rw [addf_apply, broadcastTo_1b_ab_apply, shapeCast_self,
    TrailingAxes.shapeCast_abc_an_apply _ shapeCasts_S32x128x64_S32x8192 n (Kron.hi o) (Kron.lo o) o (by norm_num)
      (by show o.val = o.val / 64 * 64 + o.val % 64; omega),
    transpose_ix3_021_apply,
    MergeLeadingAxes.shapeCast_nc_abc_apply _ shapeCasts_S2048x128_S32x64x128 n (Kron.lo o) (Kron.hi o) (row2 n (Kron.lo o)) rfl,
    product2_apply]
  unfold Kron.twoStage
  refine congrArg (· + _) (Finset.sum_congr rfl fun c _ => ?_)
  rw [truncf_apply, MergeLeadingAxes.shapeCast_abc_nc_apply _ shapeCasts_S32x64x128_S2048x128 n (Kron.lo o) c (row2 n (Kron.lo o)) rfl,
    transpose_ix3_021_apply,
    MergeLeadingAxes.shapeCast_nc_abc_apply _ shapeCasts_S4096x64_S32x128x64 n c (Kron.lo o) (row1 n c) rfl,
    stage1_apply, transpose_ix2_apply, truncf_apply]

end Cert.KernelIdeal.Body

end
-- ==== Proof.KernelValue.lean ====
/-
  The kernel's result array, from its blocks.

  The grid has two points; point `t` sees rows `32·t … 32·t + 31` of `x` and writes back the same rows of the result;
  `f1`, `f2` and the bias row (the bias vector viewed as one row) are seen whole at every point.  So what point `t`
  writes back is rows `32·t …` of ONE array — each entry the two-stage contraction of its row of `x`, plus the bias —
  and the two row blocks cover the 64 rows: after the run the result array is that array.
-/
import proofs.«157223_j58248346469065_2_alg».proof.Proof.Gen.KernelIdeal.Value
import proofs.«157223_j58248346469065_2_alg».proof.Proof.BodyValue
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the two grid points: the windows of `x` and of the result move down one row block per
    point, the other three stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The result array: each entry the two-stage contraction of its row of `x`, plus the bias. -/
abbrev result (c : Dev nD) : S64x8192.Idx → EReal :=
  Kron.outTwo (m ((c : Thread nD τ).loc main_arg0)) (m ((c : Thread nD τ).loc main_arg1))
    (m ((c : Thread nD τ).loc main_arg2)) (m ((c : Thread nD τ).loc main_arg3))

/-- Row `n` of the block of `x` at point `t` is row `32·t + n` of `x`. -/
theorem xblk_apply (c : Dev nD) (t : Fin cfg0.N) (n : Fin 32) (q : Fin 8192) (r : Fin 64) (hr : r.val = t.val * 32 + n.val) :
    (iblk m c 0 t : Vec Ideal S32x8192 .f32) (ix2 n q) = (m ((c : Thread nD τ).loc main_arg0) : S64x8192.Idx → EReal) (ix2 r q) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 32 + 1 * n.val = r.val; rw [e0, hr]; omega
  | ⟨1, _⟩ => show win0_0.index t (1 : Fin 2) * 8192 + 1 * q.val = q.val; rw [e1]; omega

/-- The block of `f1` at any point is `f1`. -/
theorem f1blk (c : Dev nD) (t : Fin cfg0.N) :
    (iblk m c 1 t : Vec Ideal S128x128 .f32) = (m ((c : Thread nD τ).loc main_arg1) : S128x128.Idx → EReal) := by
  obtain ⟨-, -, e0, e1, -⟩ := idx_facts t
  funext j
  unfold iblk
  rw [View.read_apply]
  show V m c main_arg1 _ = _
  rw [V_main_arg1]
  refine congrArg _ (funext fun a => Fin.ext ?_)
  match a with
  | ⟨0, _⟩ => show win0_1.index t (0 : Fin 2) * 128 + 1 * (j 0).val = (j 0).val; rw [e0]; omega
  | ⟨1, _⟩ => show win0_1.index t (1 : Fin 2) * 128 + 1 * (j 1).val = (j 1).val; rw [e1]; omega

/-- The block of `f2` at any point is `f2`. -/
theorem f2blk (c : Dev nD) (t : Fin cfg0.N) :
    (iblk m c 2 t : Vec Ideal S64x64 .f32) = (m ((c : Thread nD τ).loc main_arg2) : S64x64.Idx → EReal) := by
  obtain ⟨-, -, -, -, e0, e1, -⟩ := idx_facts t
  funext j
  unfold iblk
  rw [View.read_apply]
  show V m c main_arg2 _ = _
  rw [V_main_arg2]
  refine congrArg _ (funext fun a => Fin.ext ?_)
  match a with
  | ⟨0, _⟩ => show win0_2.index t (0 : Fin 2) * 64 + 1 * (j 0).val = (j 0).val; rw [e0]; omega
  | ⟨1, _⟩ => show win0_2.index t (1 : Fin 2) * 64 + 1 * (j 1).val = (j 1).val; rw [e1]; omega

/-- The bias row as the region finds it: the bias vector viewed as a [1, 8192] array. -/
theorem biasRow_eq (c : Dev nD) :
    (V m c main_v0 : S1x8192.Idx → EReal) = shapeCast S1x8192 (m ((c : Thread nD τ).loc main_arg3)) shapeCasts_S8192_S1x8192 := by
  dsimp only [Gen.V, Gen.hostOps0]
  after_results
  rfl

/-- Entry `o` of the bias row's block at any point is entry `o` of the bias. -/
theorem biasblk_apply (c : Dev nD) (t : Fin cfg0.N) (o : Fin 8192) :
    (iblk m c 3 t : Vec Ideal S1x8192 .f32) (ix2 (0 : Fin 1) o) = (m ((c : Thread nD τ).loc main_arg3) : S8192.Idx → EReal) (ix1 o) := by
  obtain ⟨-, -, -, -, -, -, e0, e1, -⟩ := idx_facts t
  unfold iblk
  rw [View.read_apply]
  show (V m c main_v0 : S1x8192.Idx → EReal) _ = _
  rw [biasRow_eq, ← shapeCast_a_1a_apply (m ((c : Thread nD τ).loc main_arg3)) shapeCasts_S8192_S1x8192 (0 : Fin 1) o]
  refine congrArg _ (funext fun a => Fin.ext ?_)
  match a with
  | ⟨0, _⟩ => show win0_3.index t (0 : Fin 2) * 1 + 1 * 0 = 0; rw [e0]
  | ⟨1, _⟩ => show win0_3.index t (1 : Fin 2) * 8192 + 1 * o.val = o.val; rw [e1]; omega

/-- WHAT POINT `t` WRITES BACK is block `t` of the result array. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S32x8192) hz, View.ld_unit_zero (S := S64x64) hz, View.ld_unit_zero (S := S128x128) hz,
    View.ld_unit_zero (S := S1x8192) hz]
  obtain ⟨-, -, -, -, -, -, -, -, e0, e1⟩ := idx_facts t
  have hN : cfg0.N = 2 := N_0
  funext j
  obtain ⟨n, o, rfl⟩ : ∃ (n : Fin 32) (o : Fin 8192), j = ix2 n o := ⟨j 0, j 1, eq_ix2 j⟩
  have ht : t.val < 2 := hN ▸ t.isLt
  have hemb : ((cfg0.win 4).blk t).view.emb (ix2 n o) = ix2 (⟨t.val * 32 + n.val, by have := n.isLt; omega⟩ : Fin 64) o :=
    funext fun a => Fin.ext (by
      match a with
      | ⟨0, _⟩ => show win0_4.index t (0 : Fin 2) * 32 + 1 * n.val = t.val * 32 + n.val; rw [e0]; omega
      | ⟨1, _⟩ => show win0_4.index t (1 : Fin 2) * 8192 + 1 * o.val = o.val; rw [e1]; omega)
  show k0_pay1 (iblk m c 0 t) (iblk m c 2 t) (iblk m c 1 t) (iblk m c 3 t) (ix2 n o) = result m c (((cfg0.win 4).blk t).view.emb (ix2 n o))
  rw [hemb]
  refine (Body.pay_apply (iblk m c 0 t) (iblk m c 2 t) (iblk m c 1 t) (iblk m c 3 t) n o).trans ?_
  rw [f1blk, f2blk, biasblk_apply,
    show (fun q => (iblk m c 0 t : Vec Ideal S32x8192 .f32) (ix2 n q))
        = fun q => (m ((c : Thread nD τ).loc main_arg0) : S64x8192.Idx → EReal) (ix2 (⟨t.val * 32 + n.val, by have := n.isLt; omega⟩ : Fin 64) q)
      from funext fun q => xblk_apply m c t n q _ rfl]
  exact (Kron.outTwo_ix2 _ _ _ _ _ o).symm

/-- An index of the result array is in point `t`'s block iff each coordinate is in the block's range on its axis. -/
theorem mem_blk (t : Fin cfg0.N) (i : S64x8192.Idx) :
    i ∈ ((cfg0.win 4).blk t).view.set ↔ ∀ a : Fin 2, win0_4.index t a * S32x8192.size a ≤ (i a).val
      ∧ (i a).val < win0_4.index t a * S32x8192.size a + S32x8192.size a := by
  show i ∈ ((View.whole main_v1).slice (win0_4.rect t)).set ↔ _
  rw [View.set_slice_whole, Rect.mem_set_unit]
  exact Iff.rfl

/-- Every row lies in one of the two row blocks: row `r` in block `r / 32`. -/
theorem cover (i : S64x8192.Idx) : ∃ t : Fin cfg0.N, (cfg0.win 4).flush t = true ∧ i ∈ ((cfg0.win 4).blk t).view.set := by
  have hN : cfg0.N = 2 := N_0
  have hi0 : (i 0).val < 64 := (i 0).isLt
  have hi1 : (i 1).val < 8192 := (i 1).isLt
  let t : Fin cfg0.N := ⟨(i 0).val / 32, by rw [hN]; omega⟩
  obtain ⟨-, -, -, -, -, -, -, -, e0, e1⟩ := idx_facts t
  have et : t.val = (i 0).val / 32 := rfl
  refine ⟨t, flush0_4 t, ?_⟩
  rw [mem_blk]
  intro a
  match a with
  | ⟨0, _⟩ => show win0_4.index t (0 : Fin 2) * 32 ≤ (i 0).val ∧ (i 0).val < win0_4.index t (0 : Fin 2) * 32 + 32; rw [e0, et]; omega
  | ⟨1, _⟩ => show win0_4.index t (1 : Fin 2) * 8192 ≤ (i 1).val ∧ (i 1).val < win0_4.index t (1 : Fin 2) * 8192 + 8192; rw [e1]; omega

/-- THE RESULT ARRAY after the run. -/
theorem final (c : Dev nD) : (dats m 0 c).arrAt 4 cfg0.N = result m c :=
  (dats m 0 c).arrAt_eq_of_cover 4 (result m c) (fun t _ => flushed_eq m c t) cover

/-- The kernel's run, read: the result array at `x · (f1 ⊗ f2)ᵀ + bias` contracted in two stages, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Arr

end
-- ==== Proof.RefValue.lean ====
/-
  What the reference computes, entry by entry, at the ideal instance.

  `jnp.kron (f1, f2)` is printed as two broadcasts to [128, 64, 128, 64], their product
  `(a, b, c, d) ↦ f1 (a, c) · f2 (b, d)`, and a reshape to [8192, 8192]; in row-major order position
  `(o, k)` of the matrix is position `(o / 64, o % 64, k / 64, k % 64)` of the rank-4 array.  The matrix is then transposed
  and contracted with `x` over its 8192 rows, and the bias row is added: entry `(n, o)` of the result is
  `∑ k, x (n, k) · (f1 (o / 64, k / 64) · f2 (o % 64, k % 64)) + bias o`.
-/
import proofs.«157223_j58248346469065_2_alg».proof.Proof.Gen.ReferenceIdeal.Read
import proofs.«157223_j58248346469065_2_alg».proof.Proof.KronSpec

noncomputable section

namespace Cert.ReferenceIdeal.RefValue

open Cert.ReferenceIdeal Cert.ReferenceIdeal.Gen Cert.ReferenceIdeal.Read Idealize.ShloMosaic Idealize.ShloMosaic.ValueIdx
open scoped BigOperators

/-- Entry `(k, o)` of the transposed Kronecker matrix is `f1 (o / 64, k / 64) · f2 (o % 64, k % 64)`. -/
theorem weightT_apply (x1 : (⟨S128x128, .f32⟩ : BufTy).Contents (Elt Ideal)) (x2 : (⟨S64x64, .f32⟩ : BufTy).Contents (Elt Ideal))
    (k o : Fin 8192) :
    val_main_v1 (F := Ideal) x1 x2 (ix2 k o) = x1 (ix2 (Kron.hi o) (Kron.hi k)) * x2 (ix2 (Kron.lo o) (Kron.lo k)) := by
  rw [val_main_v1_apply, val_main_v0_apply, val_main_call0_v4_apply, val_main_call0_v2_apply, val_main_call0_v0_apply,
    val_main_call0_v3_apply, val_main_call0_v1_apply]
  have e1 : idx_main_call0_v0 (idx_main_call0_v2 (idx_main_v0 (idx_main_v1 (ix2 k o)))) = ix2 (Kron.hi o) (Kron.hi k) :=
    funext fun a => Fin.ext (by
      have hk : k.val < 8192 := k.isLt
      have ho : o.val < 8192 := o.isLt
      match a with
      | ⟨0, _⟩ => show (o.val * 8192 + k.val) / 524288 = o.val / 64; omega
      | ⟨1, _⟩ => show (o.val * 8192 + k.val) / 64 % 128 = k.val / 64; omega)
  have e2 : idx_main_call0_v1 (idx_main_call0_v3 (idx_main_v0 (idx_main_v1 (ix2 k o)))) = ix2 (Kron.lo o) (Kron.lo k) :=
    funext fun a => Fin.ext (by
      have hk : k.val < 8192 := k.isLt
      have ho : o.val < 8192 := o.isLt
      match a with
      | ⟨0, _⟩ => show (o.val * 8192 + k.val) / 8192 % 64 = o.val % 64; omega
      | ⟨1, _⟩ => show (o.val * 8192 + k.val) % 64 = k.val % 64; omega)
  rw [e1, e2]
  rfl

/-- THE REFERENCE'S RESULT is `x · (f1 ⊗ f2)ᵀ + bias`, each entry one contraction of length 8192. -/
theorem result_eq (x0 : (⟨S64x8192, .f32⟩ : BufTy).Contents (Elt Ideal)) (x1 : (⟨S128x128, .f32⟩ : BufTy).Contents (Elt Ideal))
    (x2 : (⟨S64x64, .f32⟩ : BufTy).Contents (Elt Ideal)) (x3 : (⟨S8192, .f32⟩ : BufTy).Contents (Elt Ideal)) :
    val_main_v5 (F := Ideal) x0 x1 x2 x3 = Kron.outOne x0 x1 x2 x3 := by
  funext i
  obtain ⟨n, o, rfl⟩ : ∃ (n : Fin 64) (o : Fin 8192), i = ix2 n o := ⟨i 0, i 1, eq_ix2 i⟩
  rw [val_main_v5_apply, val_main_v2_apply, val_main_v4_apply, val_main_v3_apply, Kron.outOne_ix2]
  unfold Kron.oneStage
  show (∑ k : Fin 8192, x0 (lidx_main_v2 (ix2 n o) k) * val_main_v1 (F := Ideal) x1 x2 (ridx_main_v2 (ix2 n o) k))
      + x3 (idx_main_v3 (idx_main_v4 (ix2 n o))) = _
  have eb : idx_main_v3 (idx_main_v4 (ix2 n o)) = ix1 o := funext fun a => Fin.ext (by match a with | ⟨0, _⟩ => rfl)
  rw [eb]
  refine congrArg (· + x3 (ix1 o)) (Finset.sum_congr rfl fun k _ => ?_)
  have el : lidx_main_v2 (ix2 n o) k = ix2 n k := funext fun a => Fin.ext (by match a with | ⟨0, _⟩ => rfl | ⟨1, _⟩ => rfl)
  have er : ridx_main_v2 (ix2 n o) k = ix2 k o := funext fun a => Fin.ext (by match a with | ⟨0, _⟩ => rfl | ⟨1, _⟩ => rfl)
  rw [el, er, weightT_apply]

end Cert.ReferenceIdeal.RefValue

end
-- ==== Proof.FiniteInputs.lean ====
/-
  From the precondition to real entries.

  The precondition is the conjunction, over the four inputs, of `all (|v| < +∞)`.  An extended real `v` with
  `max v (-v) < ⊤` is neither `⊤` nor `⊥`, so it is the image of a real number.  The conjunction being true makes each
  `all` true, and an `all` (a reduction by `and` from `true`) being true makes every element true.
-/
import proofs.«157223_j58248346469065_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Pre_finite_inputs.Finite

open Cert.Pre_finite_inputs Cert.Pre_finite_inputs.Gen Idealize.ShloMosaic Idealize.ShloMosaic.ValueIdx

instance : Subsingleton S_.Idx := ⟨fun a b => funext fun d => d.elim0⟩

/-- An extended real whose absolute value is below `+∞` is a real number. -/
theorem real_of_abs_lt_top (v : EReal)
    (h : Ideal.cmp .olt (max v (-v)) (Ideal.ofBits .f32 0x7F800000#32) = 1#1) : ∃ r : ℝ, v = r := by
  have htop : Ideal.ofBits .f32 0x7F800000#32 = ⊤ := by simp [Ideal.ofBits, Ideal.ieee]
  rw [htop] at h
  unfold Ideal.cmp at h
  induction v using EReal.rec with
  | bot => simp at h
  | coe r => exact ⟨r, rfl⟩
  | top => simp at h

/-- Under the precondition `x`, `f1` and `f2` hold real numbers. -/
theorem real_of_pre (a0 : FVec Ideal S64x8192 .f32) (a1 : FVec Ideal S128x128 .f32) (a2 : FVec Ideal S64x64 .f32)
    (a3 : FVec Ideal S8192 .f32) (h : fn (F := Ideal) a0 a1 a2 a3 = fun _ => 1#1) :
    (∀ j, ∃ r : ℝ, a0 j = r) ∧ (∀ j, ∃ r : ℝ, a1 j = r) ∧ (∀ j, ∃ r : ℝ, a2 j = r) := by
  have h0 := congrFun h ix0
  dsimp only [fn, fn_part1] at h0
  obtain ⟨h012, -⟩ := IntOp.andi_eq_one.1 h0
  obtain ⟨h01, hc⟩ := IntOp.andi_eq_one.1 h012
  obtain ⟨ha, hb⟩ := IntOp.andi_eq_one.1 h01
  refine ⟨fun j => real_of_abs_lt_top _ (Host.reduce_andi_all _ _ _ _ ix0 ha j),
    fun j => real_of_abs_lt_top _ (Host.reduce_andi_all _ _ _ _ ix0 hb j),
    fun j => real_of_abs_lt_top _ (Host.reduce_andi_all _ _ _ _ ix0 hc j)⟩

end Cert.Pre_finite_inputs.Finite

end
-- ==== Proof.lean ====
/-
  A linear layer whose weight is a Kronecker product, `out = x · (f1 ⊗ f2)ᵀ + bias` with `x` of shape [64, 8192],
  `f1` [128, 128], `f2` [64, 64]: the kernel never forms the 8192 × 8192 weight but contracts in two stages, the
  reference forms it and contracts once.

  With column `k = c·64 + d` and output column `o = a·64 + b`, `(f1 ⊗ f2) (o, k) = f1 (a, c) · f2 (b, d)`, so

      reference : out (n, o) = ∑ k, x (n, k) · (f1 (a, k / 64) · f2 (b, k % 64)) + bias o
      kernel    : out (n, o) = ∑ c, (∑ d, x (n, c·64 + d) · f2 (b, d)) · f1 (a, c) + bias o .

  The kernel's roundings to bf16 are the identity on exact values, and its reshapes and transposes only rename
  positions.  The two sums are equal by cutting the long sum into 128 blocks of 64 and taking `f1 (a, c)` out of block
  `c` — distributivity, which on the extended reals needs the entries of `x`, `f1`, `f2` to be real numbers: that is
  what the precondition (all inputs finite) gives.  The bias is only added, on both sides alike.

  The modules: `KronSpec` (the two arrangements and their equality on real entries), `BodyValue` (the kernel body's
  result at an entry), `KernelValue` (the result array from the two row blocks the grid writes), `RefValue` (the
  reference's operations read at an entry), `FiniteInputs` (the precondition gives real entries).
-/
import proofs.«157223_j58248346469065_2_alg».proof.Defs
import proofs.«157223_j58248346469065_2_alg».proof.Proof.Gen.Kernel
import proofs.«157223_j58248346469065_2_alg».proof.Proof.Gen.Kernel.Skeleton
import proofs.«157223_j58248346469065_2_alg».proof.Proof.Gen.Kernel.Launch
import proofs.«157223_j58248346469065_2_alg».proof.Proof.Gen.Kernel.Points
import proofs.«157223_j58248346469065_2_alg».proof.Proof.Gen.Kernel.Frame
import proofs.«157223_j58248346469065_2_alg».proof.Proof.Gen.KernelIdeal
import proofs.«157223_j58248346469065_2_alg».proof.Proof.Gen.KernelIdeal.Skeleton
import proofs.«157223_j58248346469065_2_alg».proof.Proof.Gen.KernelIdeal.Launch
import proofs.«157223_j58248346469065_2_alg».proof.Proof.Gen.KernelIdeal.Points
import proofs.«157223_j58248346469065_2_alg».proof.Proof.Gen.KernelIdeal.Frame
import proofs.«157223_j58248346469065_2_alg».proof.Proof.Gen.ReferenceIdeal
import proofs.«157223_j58248346469065_2_alg».proof.Proof.Gen.Pre_finite_inputs
import proofs.«157223_j58248346469065_2_alg».proof.Proof.Gen.KernelIdeal.Value
import proofs.«157223_j58248346469065_2_alg».proof.Proof.Gen.ReferenceIdeal.Run
import proofs.«157223_j58248346469065_2_alg».proof.Proof.Gen.ReferenceIdeal.Read
import proofs.«157223_j58248346469065_2_alg».proof.Proof.KronSpec
import proofs.«157223_j58248346469065_2_alg».proof.Proof.KernelValue
import proofs.«157223_j58248346469065_2_alg».proof.Proof.RefValue
import proofs.«157223_j58248346469065_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `x · (f1 ⊗ f2)ᵀ + bias`: the kernel's array contracted in two stages, the reference's in
    one; on the real entries the precondition gives, the two are the same array. -/
theorem algebraic : Cert.algebraic_KernelIdeal_ReferenceIdeal := by
  intro m ρ m' ρ' hpre hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq,
    (hagree c).1, (hagree c).2.1, (hagree c).2.2.1, (hagree c).2.2.2]
  obtain ⟨hx, h1, h2⟩ := Cert.Pre_finite_inputs.Finite.real_of_pre _ _ _ _ (hpre c)
  exact Kron.outOne_eq_outTwo _ _ _ _ hx h1 h2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
